-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x64x128 : Shape := ⟨4, ![32, 64, 64, 128]⟩
abbrev S32x32x64x128 : Shape := ⟨4, ![32, 32, 64, 128]⟩
abbrev S32x64x32x128 : Shape := ⟨4, ![32, 64, 32, 128]⟩
abbrev S32x32x32x128 : Shape := ⟨4, ![32, 32, 32, 128]⟩
abbrev S128x128 : Shape := ⟨2, ![128, 128]⟩
abbrev S128 : Shape := ⟨1, ![128]⟩
abbrev S_ : Shape := ⟨0, ![]⟩

class Facts : Prop where
  bcast_S_S32x64x64x128 : S_.BroadcastsInDim S32x64x64x128 (![] : Fin 0 → Fin S32x64x64x128.rank)
  reducesTo_S32x64x64x128_S_d0_1_2_3 : S32x64x64x128.ReducesTo [0, 1, 2, 3] S_
  h_S_ : 0 < S_.numel
  bcast_S_S32x32x64x128 : S_.BroadcastsInDim S32x32x64x128 (![] : Fin 0 → Fin S32x32x64x128.rank)
  reducesTo_S32x32x64x128_S_d0_1_2_3 : S32x32x64x128.ReducesTo [0, 1, 2, 3] S_
  bcast_S_S32x64x32x128 : S_.BroadcastsInDim S32x64x32x128 (![] : Fin 0 → Fin S32x64x32x128.rank)
  reducesTo_S32x64x32x128_S_d0_1_2_3 : S32x64x32x128.ReducesTo [0, 1, 2, 3] S_
  bcast_S_S32x32x32x128 : S_.BroadcastsInDim S32x32x32x128 (![] : Fin 0 → Fin S32x32x32x128.rank)
  reducesTo_S32x32x32x128_S_d0_1_2_3 : S32x32x32x128.ReducesTo [0, 1, 2, 3] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S32x32x32x128 1) : IVec S_ 1 :=
  let main_c_5 : IVec S_ 1 := constantI S_ 1 1#1
  let main_v17 : IVec S_ 1 := (fun x v => Host.reduce IntOp.andi x v reducesTo_S32x32x32x128_S_d0_1_2_3 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S32x64x64x128 .f32) (main_arg1 : FVec F S32x32x64x128 .f32) (main_arg2 : FVec F S32x64x32x128 .f32) (main_arg3 : FVec F S32x32x32x128 .f32) (main_arg4 : FVec F S128x128 .f32) (main_arg5 : FVec F S128 .f32) : IVec S_ 1 :=
  let main_v0 : FVec F S32x64x64x128 .f32 := Host.absf main_arg0
  let main_cst : FVec F S_ .f32 := constant S_ .f32 0x7F800000#32
  let main_v1 : FVec F S32x64x64x128 .f32 := broadcastInDim S32x64x64x128 ![] bcast_S_S32x64x64x128 main_cst
  let main_v2 : IVec S32x64x64x128 1 := cmpf .olt main_v0 main_v1
  let main_c : IVec S_ 1 := constantI S_ 1 1#1
  let main_v3 : IVec S_ 1 := (fun x v => Host.reduce IntOp.andi x v reducesTo_S32x64x64x128_S_d0_1_2_3 h_S_) main_v2 main_c
  let main_v4 : FVec F S32x32x64x128 .f32 := Host.absf main_arg1
  let main_cst_0 : FVec F S_ .f32 := constant S_ .f32 0x7F800000#32
  let main_v5 : FVec F S32x32x64x128 .f32 := broadcastInDim S32x32x64x128 ![] bcast_S_S32x32x64x128 main_cst_0
  let main_v6 : IVec S32x32x64x128 1 := cmpf .olt main_v4 main_v5
  let main_c_1 : IVec S_ 1 := constantI S_ 1 1#1
  let main_v7 : IVec S_ 1 := (fun x v => Host.reduce IntOp.andi x v reducesTo_S32x32x64x128_S_d0_1_2_3 h_S_) main_v6 main_c_1
  let main_v8 : IVec S_ 1 := andi main_v3 main_v7
  let main_v9 : FVec F S32x64x32x128 .f32 := Host.absf main_arg2
  let main_cst_2 : FVec F S_ .f32 := constant S_ .f32 0x7F800000#32
  let main_v10 : FVec F S32x64x32x128 .f32 := broadcastInDim S32x64x32x128 ![] bcast_S_S32x64x32x128 main_cst_2
  let main_v11 : IVec S32x64x32x128 1 := cmpf .olt main_v9 main_v10
  let main_c_3 : IVec S_ 1 := constantI S_ 1 1#1
  let main_v12 : IVec S_ 1 := (fun x v => Host.reduce IntOp.andi x v reducesTo_S32x64x32x128_S_d0_1_2_3 h_S_) main_v11 main_c_3
  let main_v13 : IVec S_ 1 := andi main_v8 main_v12
  let main_v14 : FVec F S32x32x32x128 .f32 := Host.absf main_arg3
  let main_cst_4 : FVec F S_ .f32 := constant S_ .f32 0x7F800000#32
  let main_v15 : FVec F S32x32x32x128 .f32 := broadcastInDim S32x32x32x128 ![] bcast_S_S32x32x32x128 main_cst_4
  let main_v16 : IVec S32x32x32x128 1 := cmpf .olt main_v14 main_v15
  fn_part1 (F := F) main_arg4 main_arg5 main_v13 main_v16
-- ==== Kernel.lean ====
abbrev S32x64x64x128 : Shape := ⟨4, ![32, 64, 64, 128]⟩
abbrev S32x32x64x128 : Shape := ⟨4, ![32, 32, 64, 128]⟩
abbrev S32x64x32x128 : Shape := ⟨4, ![32, 64, 32, 128]⟩
abbrev S32x32x32x128 : Shape := ⟨4, ![32, 32, 32, 128]⟩
abbrev S128x128 : Shape := ⟨2, ![128, 128]⟩
abbrev S128 : Shape := ⟨1, ![128]⟩
abbrev S131072x128 : Shape := ⟨2, ![131072, 128]⟩
abbrev S65536x128 : Shape := ⟨2, ![65536, 128]⟩
abbrev S32768x128 : Shape := ⟨2, ![32768, 128]⟩
abbrev S1x128 : Shape := ⟨2, ![1, 128]⟩
abbrev S294912x128 : Shape := ⟨2, ![294912, 128]⟩
abbrev S4096x128 : Shape := ⟨2, ![4096, 128]⟩
abbrev S72x64x64x128 : Shape := ⟨4, ![72, 64, 64, 128]⟩

abbrev nBuf : Space → Nat
  | .hbm => 15
  | .vmem => 12
  | .smem => 0
  | _ => 0

abbrev bufTy : (tb : Table) → Fin (tcTables nBuf tb) → BufTy
  | .hbm, ⟨0, _⟩ => ⟨S32x64x64x128, .f32⟩
  | .hbm, ⟨1, _⟩ => ⟨S32x32x64x128, .f32⟩
  | .hbm, ⟨2, _⟩ => ⟨S32x64x32x128, .f32⟩
  | .hbm, ⟨3, _⟩ => ⟨S32x32x32x128, .f32⟩
  | .hbm, ⟨4, _⟩ => ⟨S128x128, .f32⟩
  | .hbm, ⟨5, _⟩ => ⟨S128, .f32⟩
  | .hbm, ⟨6, _⟩ => ⟨S131072x128, .f32⟩
  | .hbm, ⟨7, _⟩ => ⟨S65536x128, .f32⟩
  | .hbm, ⟨8, _⟩ => ⟨S65536x128, .f32⟩
  | .hbm, ⟨9, _⟩ => ⟨S32768x128, .f32⟩
  | .hbm, ⟨10, _⟩ => ⟨S128x128, .f32⟩
  | .hbm, ⟨11, _⟩ => ⟨S128x128, .bf16⟩
  | .hbm, ⟨12, _⟩ => ⟨S1x128, .f32⟩
  | .hbm, ⟨13, _⟩ => ⟨S294912x128, .f32⟩
  | .hbm, ⟨14, _⟩ => ⟨S72x64x64x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S128x128, .bf16⟩
  | .local _ .vmem, ⟨9, _⟩ => ⟨S1x128, .f32⟩
  | .local _ .vmem, ⟨10, _⟩ => ⟨S4096x128, .f32⟩
  | .local _ .vmem, ⟨11, _⟩ => ⟨S4096x128, .f32⟩
  | _, _ => ⟨S32x64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c32_i32 : BitVec 32 := 32#32
  let v0 : BitVec 32 := Scalar.subi arg0 c32_i32
  let c16_i32 : BitVec 32 := 16#32
  let v1 : BitVec 32 := Scalar.subi v0 c16_i32
  let c0_i32 : BitVec 32 := 0#32
  let c15_i32 : BitVec 32 := 15#32
  let v2 : BitVec 32 := Scalar.maxsi c0_i32 v1
  let v3 : BitVec 32 := Scalar.minsi c15_i32 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c16_i32 : BitVec 32 := 16#32
  let v1 : BitVec 32 := Scalar.subi v0 c16_i32
  let c16_i32_0 : BitVec 32 := 16#32
  let v2 : BitVec 32 := Scalar.subi v1 c16_i32_0
  let c0_i32 : BitVec 32 := 0#32
  let c7_i32 : BitVec 32 := 7#32
  let v3 : BitVec 32 := Scalar.maxsi c0_i32 v2
  let v4 : BitVec 32 := Scalar.minsi c7_i32 v3
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32x64x64x128_S131072x128 : S32x64x64x128.ShapeCasts S131072x128
  shapeCasts_S32x32x64x128_S65536x128 : S32x32x64x128.ShapeCasts S65536x128
  shapeCasts_S32x64x32x128_S65536x128 : S32x64x32x128.ShapeCasts S65536x128
  shapeCasts_S32x32x32x128_S32768x128 : S32x32x32x128.ShapeCasts S32768x128
  transposes_S128x128_S128x128_1_0 : S128x128.Transposes [1, 0] S128x128
  bitsLt_bf16_f32 : FTy.bits .bf16 < FTy.bits .f32
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S294912x128_S72x64x64x128 : S294912x128.ShapeCasts S72x64x64x128
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S65536x128.size a
  hwx0_1 : ∀ i : grid0.Coords, EltTy.bits .f32 = 32 ∨ (Rect.block (s := S65536x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S65536x128.size a
  hwx0_2 : ∀ i : grid0.Coords, EltTy.bits .f32 = 32 ∨ (Rect.block (s := S65536x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S32768x128.size a
  hwx0_3 : ∀ i : grid0.Coords, EltTy.bits .f32 = 32 ∨ (Rect.block (s := S32768x128) S4096x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S294912x128.size a
  hwx0_6 : ∀ i : grid0.Coords, EltTy.bits .f32 = 32 ∨ (Rect.block (s := S294912x128) S4096x128.size (cc0_transform_6 i) (hinb0_6 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x64x64x128 : Shape := ⟨4, ![32, 64, 64, 128]⟩
abbrev S32x32x64x128 : Shape := ⟨4, ![32, 32, 64, 128]⟩
abbrev S32x64x32x128 : Shape := ⟨4, ![32, 64, 32, 128]⟩
abbrev S32x32x32x128 : Shape := ⟨4, ![32, 32, 32, 128]⟩
abbrev S128x128 : Shape := ⟨2, ![128, 128]⟩
abbrev S128 : Shape := ⟨1, ![128]⟩
abbrev S131072x128 : Shape := ⟨2, ![131072, 128]⟩
abbrev S65536x128 : Shape := ⟨2, ![65536, 128]⟩
abbrev S32768x128 : Shape := ⟨2, ![32768, 128]⟩
abbrev S294912x128 : Shape := ⟨2, ![294912, 128]⟩
abbrev S1x128 : Shape := ⟨2, ![1, 128]⟩
abbrev S72x64x64x128 : Shape := ⟨4, ![72, 64, 64, 128]⟩

abbrev nBuf : Space → Nat
  | .hbm => 17
  | .vmem => 0
  | .smem => 0
  | _ => 0

abbrev bufTy : (tb : Table) → Fin (tcTables nBuf tb) → BufTy
  | .hbm, ⟨0, _⟩ => ⟨S32x64x64x128, .f32⟩
  | .hbm, ⟨1, _⟩ => ⟨S32x32x64x128, .f32⟩
  | .hbm, ⟨2, _⟩ => ⟨S32x64x32x128, .f32⟩
  | .hbm, ⟨3, _⟩ => ⟨S32x32x32x128, .f32⟩
  | .hbm, ⟨4, _⟩ => ⟨S128x128, .f32⟩
  | .hbm, ⟨5, _⟩ => ⟨S128, .f32⟩
  | .hbm, ⟨6, _⟩ => ⟨S131072x128, .f32⟩
  | .hbm, ⟨7, _⟩ => ⟨S65536x128, .f32⟩
  | .hbm, ⟨8, _⟩ => ⟨S65536x128, .f32⟩
  | .hbm, ⟨9, _⟩ => ⟨S32768x128, .f32⟩
  | .hbm, ⟨10, _⟩ => ⟨S294912x128, .f32⟩
  | .hbm, ⟨11, _⟩ => ⟨S128x128, .f32⟩
  | .hbm, ⟨12, _⟩ => ⟨S294912x128, .f32⟩
  | .hbm, ⟨13, _⟩ => ⟨S1x128, .f32⟩
  | .hbm, ⟨14, _⟩ => ⟨S294912x128, .f32⟩
  | .hbm, ⟨15, _⟩ => ⟨S294912x128, .f32⟩
  | .hbm, ⟨16, _⟩ => ⟨S72x64x64x128, .f32⟩
  | _, _ => ⟨S32x64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  shapeCasts_S32x64x64x128_S131072x128 : S32x64x64x128.ShapeCasts S131072x128
  shapeCasts_S32x32x64x128_S65536x128 : S32x32x64x128.ShapeCasts S65536x128
  shapeCasts_S32x64x32x128_S65536x128 : S32x64x32x128.ShapeCasts S65536x128
  shapeCasts_S32x32x32x128_S32768x128 : S32x32x32x128.ShapeCasts S32768x128
  concatenates_S131072x128_S65536x128_S65536x128_S32768x128_S294912x128_d0 : Shape.Concatenates [S131072x128, S65536x128, S65536x128, S32768x128] S294912x128 0
  transposes_S128x128_S128x128_1_0 : S128x128.Transposes [1, 0] S128x128
  bcast_S128_S1x128_1 : S128.BroadcastsInDim S1x128 (![1] : Fin 1 → Fin S1x128.rank)
  bcast_S1x128_S294912x128_0_1 : S1x128.BroadcastsInDim S294912x128 (![0, 1] : Fin 2 → Fin S294912x128.rank)
  shapeCasts_S294912x128_S72x64x64x128 : S294912x128.ShapeCasts S72x64x64x128
  dot_S294912x128_S128x128_S294912x128_1_0_0_1_n_n_wf : DotDims.WF S294912x128 S128x128 S294912x128 [1] [0] [0] [1] [] []

variable [Facts₀]

def dot_S294912x128_S128x128_S294912x128_1_0_0_1_n_n : DotDims S294912x128 S128x128 S294912x128 where
  lhsContracting := [1]
  rhsContracting := [0]
  lhsNonContracting := [0]
  rhsNonContracting := [1]
  lhsBatch := []
  rhsBatch := []
  wf := dot_S294912x128_S128x128_S294912x128_1_0_0_1_n_n_wf

class Facts : Prop extends Facts₀ where

variable [Facts]
-- ==== Proof.KernelBlock.lean ====
/-
  What one grid point computes.  The body holds four candidate blocks of 4096 rows, one per source, and keeps exactly one of
  them according to the grid position n: the first for n < 32, the second for 32 ≤ n < 48, the third for 48 ≤ n < 64, the
  fourth from 64 on (the three comparisons of the position with 32, 48 and 64 are words that equal one exactly in
  these ranges).  The kept block is multiplied with the 128 × 128 matrix — the block product into a zero accumulator is, entry by entry, the
  sum over the 128 features of row entry times matrix entry — and the bias row, repeated down the 4096 rows, is added.
  The changes of float format in between are the identity on the extended reals.
-/
import proofs.«107236_j9663676416464_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

variable {α : Type}

/-! ## Which source a grid position works on -/

/-- The candidate kept at grid position `n`. -/
def pick (n : Nat) (a b c d : α) : α := if n < 32 then a else if n < 48 then b else if n < 64 then c else d

/-- Keeping a candidate among functions, then evaluating, is keeping among the values. -/
theorem pick_apply {β : Type} (n : Nat) (a b c d : β → α) (y : β) : pick n a b c d y = pick n (a y) (b y) (c y) (d y) := by
  unfold pick
  split_ifs <;> rfl

/-- The comparison words of a position below 72: each is one exactly on its range. -/
theorem word_facts : ∀ n : Fin 72,
    (Scalar.cmpi .slt (BitVec.ofNat 32 n.val) 32#32 = 1 ↔ n.val < 32)
    ∧ (Scalar.andi (Scalar.cmpi .sge (BitVec.ofNat 32 n.val) 32#32) (Scalar.cmpi .slt (BitVec.ofNat 32 n.val) 48#32) = 1 ↔ 32 ≤ n.val ∧ n.val < 48)
    ∧ (Scalar.andi (Scalar.cmpi .sge (BitVec.ofNat 32 n.val) 48#32) (Scalar.cmpi .slt (BitVec.ofNat 32 n.val) 64#32) = 1 ↔ 48 ≤ n.val ∧ n.val < 64) := by
  decide

/-- The same for a natural number below 72. -/
theorem word_facts_nat (n : Nat) (hn : n < 72) :
    (Scalar.cmpi .slt (BitVec.ofNat 32 n) 32#32 = 1 ↔ n < 32)
    ∧ (Scalar.andi (Scalar.cmpi .sge (BitVec.ofNat 32 n) 32#32) (Scalar.cmpi .slt (BitVec.ofNat 32 n) 48#32) = 1 ↔ 32 ≤ n ∧ n < 48)
    ∧ (Scalar.andi (Scalar.cmpi .sge (BitVec.ofNat 32 n) 48#32) (Scalar.cmpi .slt (BitVec.ofNat 32 n) 64#32) = 1 ↔ 48 ≤ n ∧ n < 64) :=
  word_facts ⟨n, hn⟩

/-- The body's nested selection is `pick` at the grid position. -/
theorem select_eq_pick (i : grid0.Coords) (a b c d : α) :
    Scalar.select (Scalar.cmpi .slt (BitVec.ofNat 32 (i 0).val) 32#32) a
      (Scalar.select (Scalar.andi (Scalar.cmpi .sge (BitVec.ofNat 32 (i 0).val) 32#32) (Scalar.cmpi .slt (BitVec.ofNat 32 (i 0).val) 48#32)) b
        (Scalar.select (Scalar.andi (Scalar.cmpi .sge (BitVec.ofNat 32 (i 0).val) 48#32) (Scalar.cmpi .slt (BitVec.ofNat 32 (i 0).val) 64#32)) c d))
      = pick (i 0).val a b c d := by
  have hi : (i 0).val < 72 := (i 0).isLt
  obtain ⟨h0, h1, h2⟩ := word_facts_nat (i 0).val hi
  unfold pick Scalar.select
  by_cases c0 : (i 0).val < 32
  · rw [if_pos (h0.mpr c0), if_pos c0]
  · rw [if_neg (fun h => c0 (h0.mp h)), if_neg c0]
    by_cases c1 : (i 0).val < 48
    · rw [if_pos (h1.mpr ⟨by omega, c1⟩), if_pos c1]
    · rw [if_neg (fun h => c1 (h1.mp h).2), if_neg c1]
      by_cases c2 : (i 0).val < 64
      · rw [if_pos (h2.mpr ⟨by omega, c2⟩), if_pos c2]
      · rw [if_neg (fun h => c2 (h2.mp h).2), if_neg c2]

/-! ## The entries a block entry depends on -/

/-- Entry `k` of the block row of `y`. -/
abbrev rowIn (y : S4096x128.Idx) (k : Fin 128) : S4096x128.Idx := fun a => match a with
  | ⟨0, _⟩ => ⟨(y 0).val, (y 0).isLt⟩
  | ⟨1, _⟩ => ⟨k.val, k.isLt⟩

/-- Entry `k` of the matrix column of `y`. -/
abbrev colIn (y : S4096x128.Idx) (k : Fin 128) : S128x128.Idx := fun a => match a with
  | ⟨0, _⟩ => ⟨k.val, k.isLt⟩
  | ⟨1, _⟩ => ⟨(y 1).val, (y 1).isLt⟩

/-- The bias of the output feature of `y`. -/
abbrev biasIn (y : S4096x128.Idx) : S1x128.Idx := fun a => match a with
  | ⟨0, _⟩ => ⟨0, Nat.one_pos⟩
  | ⟨1, _⟩ => ⟨(y 1).val, (y 1).isLt⟩

/-! ## The block product at an entry -/

theorem lhs_0 (y : S4096x128.Idx) (q : dot_S4096x128_S128x128_S4096x128_1_0_0_1_n_n.contr.Idx) : (dot_S4096x128_S128x128_S4096x128_1_0_0_1_n_n.lhsIdx y q 0).val = (y 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_1 (y : S4096x128.Idx) (q : dot_S4096x128_S128x128_S4096x128_1_0_0_1_n_n.contr.Idx) : (dot_S4096x128_S128x128_S4096x128_1_0_0_1_n_n.lhsIdx y q 1).val = (q ⟨0, by decide⟩).val :=
  dot_S4096x128_S128x128_S4096x128_1_0_0_1_n_n.lhsIdx_val_of_single rfl y q
theorem rhs_0 (y : S4096x128.Idx) (q : dot_S4096x128_S128x128_S4096x128_1_0_0_1_n_n.contr.Idx) : (dot_S4096x128_S128x128_S4096x128_1_0_0_1_n_n.rhsIdx y q 0).val = (q ⟨0, by decide⟩).val :=
  dot_S4096x128_S128x128_S4096x128_1_0_0_1_n_n.rhsIdx_val_of_single rfl y q
theorem rhs_1 (y : S4096x128.Idx) (q : dot_S4096x128_S128x128_S4096x128_1_0_0_1_n_n.contr.Idx) : (dot_S4096x128_S128x128_S4096x128_1_0_0_1_n_n.rhsIdx y q 1).val = (y 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The block product into a zero accumulator, at an entry: the sum over the features of row entry times matrix entry. -/
theorem matmul_at (l : FVec Ideal S4096x128 .bf16) (r : FVec Ideal S128x128 .bf16) (y : S4096x128.Idx) :
    matmul dot_S4096x128_S128x128_S4096x128_1_0_0_1_n_n none l r (constant (F := Ideal) S4096x128 .f32 0x00000000#32) y = ∑ k : Fin 128, l (rowIn y k) * r (colIn y k) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx y ((contrEquiv1 dot_S4096x128_S128x128_S4096x128_1_0_0_1_n_n 128 rfl rfl).symm k) = rowIn y k := funext fun a => Fin.ext (by
    match a with
    | ⟨0, _⟩ => exact lhs_0 _ _
    | ⟨1, _⟩ => exact (lhs_1 _ _).trans hk)
  have er : dot_S4096x128_S128x128_S4096x128_1_0_0_1_n_n.rhsIdx y ((contrEquiv1 dot_S4096x128_S128x128_S4096x128_1_0_0_1_n_n 128 rfl rfl).symm k) = colIn y k := funext fun a => Fin.ext (by
    match a with
    | ⟨0, _⟩ => exact (rhs_0 _ _).trans hk
    | ⟨1, _⟩ => exact rhs_1 _ _)
  rw [el, er]

/-- The bias row repeated down the block, at an entry. -/
theorem bias_at (v : FVec Ideal S1x128 .f32) (y : S4096x128.Idx) :
    broadcastTo S4096x128 v broadcasts_S1x128_S4096x128 y = v (biasIn y) :=
  broadcastTo_apply v broadcasts_S1x128_S4096x128 y (biasIn y) (fun a => match a with
    | ⟨0, _⟩ => by show 0 = if (1 : Nat) = 1 then 0 else _; rw [if_pos rfl]
    | ⟨1, _⟩ => by show (y 1).val = if (128 : Nat) = 1 then 0 else (y 1).val; rw [if_neg (by decide)])

/-! ## The stored value at an entry -/

/-- What the body stores, entry by entry: the kept block's row times the matrix column, plus the bias. -/
theorem pay_apply (i : grid0.Coords) (x0 x1 x2 x3 : Vec Ideal S4096x128 .f32) (x4 : Vec Ideal S128x128 .bf16) (x5 : Vec Ideal S1x128 .f32)
    (y : S4096x128.Idx) :
    k0_pay1 (F := Ideal) i x0 x1 x2 x3 x4 x5 y
      = (∑ k : Fin 128, pick (i 0).val (x0 (rowIn y k)) (x1 (rowIn y k)) (x2 (rowIn y k)) (x3 (rowIn y k)) * x4 (colIn y k)) + x5 (biasIn y) := by
  unfold k0_pay1
  simp only [shapeCast_self]
  rw [addf_apply, matmul_at, bias_at, select_eq_pick]
  refine congrArg (· + x5 (biasIn y)) (Finset.sum_congr rfl fun k _ => ?_)
  rw [truncf_apply, pick_apply]

end Cert.KernelIdeal.Block

end
-- ==== Proof.JoinedRows.lean ====
/-
  The four sources laid one after the other.  Source 0 has 131072 rows, sources 1 and 2 have 65536 each, source 3 has
  32768; joined along the row axis they make 294912 rows.  A row of the joined array is a row of exactly one source:
  rows below 131072 are source 0's, the next 65536 source 1's (row r is its row r − 131072), the next 65536 source 2's
  (row r − 196608), the last 32768 source 3's (row r − 262144).  The feature coordinate is untouched.
-/
import Idealize.ShloMosaic.Lib.Pipeline.Value
import Idealize.ShloMosaic.Lib.ValueIdx

noncomputable section

namespace Cert.JoinedRows

open Idealize.ShloMosaic

abbrev Rows : Shape := ⟨2, ![294912, 128]⟩
abbrev Src0 : Shape := ⟨2, ![131072, 128]⟩
abbrev Src12 : Shape := ⟨2, ![65536, 128]⟩
abbrev Src3 : Shape := ⟨2, ![32768, 128]⟩

variable {α : Type}

/-- Row `r − off` of a source of `n` rows, at the feature of `j`, for a joined row `r` inside the source's span. -/
abbrev srcAt {n : Nat} (off : Nat) (j : Rows.Idx) (h : (j 0).val - off < n) : (⟨2, ![n, 128]⟩ : Shape).Idx := fun a => match a with
  | ⟨0, _⟩ => ⟨(j 0).val - off, h⟩
  | ⟨1, _⟩ => ⟨(j 1).val, (j 1).isLt⟩

/-- A joined row below 131072 is that row of source 0. -/
theorem joined_src0 (u0 : Src0.Idx → α) (u1 : Src12.Idx → α) (u2 : Src12.Idx → α) (u3 : Src3.Idx → α)
    (h : Shape.Concatenates [Src0, Src12, Src12, Src3] Rows 0) (j : Rows.Idx) (hj : (j 0).val < 131072) :
    concatenate Rows 0 [⟨Src0, u0⟩, ⟨Src12, u1⟩, ⟨Src12, u2⟩, ⟨Src3, u3⟩] h j = u0 (srcAt 0 j (by omega)) :=
  concatenate_apply_piece (0 : Fin Rows.rank) [⟨Src0, u0⟩, ⟨Src12, u1⟩, ⟨Src12, u2⟩, ⟨Src3, u3⟩] h j 0 (show 0 < 4 by omega) Src0 u0 rfl rfl 0 rfl (srcAt 0 j (by omega))
    (fun b hb => match b with
      | ⟨0, _⟩ => absurd rfl hb
      | ⟨1, _⟩ => rfl)
    (by show 0 + ((j 0).val - 0) = (j 0).val; omega)

/-- A joined row from 131072 up to 196608 is row r − 131072 of source 1. -/
theorem joined_src1 (u0 : Src0.Idx → α) (u1 : Src12.Idx → α) (u2 : Src12.Idx → α) (u3 : Src3.Idx → α)
    (h : Shape.Concatenates [Src0, Src12, Src12, Src3] Rows 0) (j : Rows.Idx) (hlo : 131072 ≤ (j 0).val) (hhi : (j 0).val < 196608) :
    concatenate Rows 0 [⟨Src0, u0⟩, ⟨Src12, u1⟩, ⟨Src12, u2⟩, ⟨Src3, u3⟩] h j = u1 (srcAt 131072 j (by omega)) :=
  concatenate_apply_piece (0 : Fin Rows.rank) [⟨Src0, u0⟩, ⟨Src12, u1⟩, ⟨Src12, u2⟩, ⟨Src3, u3⟩] h j 1 (show 1 < 4 by omega) Src12 u1 rfl rfl 131072 rfl (srcAt 131072 j (by omega))
    (fun b hb => match b with
      | ⟨0, _⟩ => absurd rfl hb
      | ⟨1, _⟩ => rfl)
    (by show 131072 + ((j 0).val - 131072) = (j 0).val; omega)

/-- A joined row from 196608 up to 262144 is row r − 196608 of source 2. -/
theorem joined_src2 (u0 : Src0.Idx → α) (u1 : Src12.Idx → α) (u2 : Src12.Idx → α) (u3 : Src3.Idx → α)
    (h : Shape.Concatenates [Src0, Src12, Src12, Src3] Rows 0) (j : Rows.Idx) (hlo : 196608 ≤ (j 0).val) (hhi : (j 0).val < 262144) :
    concatenate Rows 0 [⟨Src0, u0⟩, ⟨Src12, u1⟩, ⟨Src12, u2⟩, ⟨Src3, u3⟩] h j = u2 (srcAt 196608 j (by omega)) :=
  concatenate_apply_piece (0 : Fin Rows.rank) [⟨Src0, u0⟩, ⟨Src12, u1⟩, ⟨Src12, u2⟩, ⟨Src3, u3⟩] h j 2 (show 2 < 4 by omega) Src12 u2 rfl rfl 196608 rfl (srcAt 196608 j (by omega))
    (fun b hb => match b with
      | ⟨0, _⟩ => absurd rfl hb
      | ⟨1, _⟩ => rfl)
    (by show 196608 + ((j 0).val - 196608) = (j 0).val; omega)

/-- The last 32768 rows: a joined row from 262144 on, less 262144, is below 32768. -/
theorem src3_bound (j : Rows.Idx) (hlo : 262144 ≤ (j 0).val) : (j 0).val - 262144 < 32768 := by
  have hr : (j 0).val < 294912 := (j 0).isLt
  omega

/-- A joined row from 262144 on is row r − 262144 of source 3. -/
theorem joined_src3 (u0 : Src0.Idx → α) (u1 : Src12.Idx → α) (u2 : Src12.Idx → α) (u3 : Src3.Idx → α)
    (h : Shape.Concatenates [Src0, Src12, Src12, Src3] Rows 0) (j : Rows.Idx) (hlo : 262144 ≤ (j 0).val) :
    concatenate Rows 0 [⟨Src0, u0⟩, ⟨Src12, u1⟩, ⟨Src12, u2⟩, ⟨Src3, u3⟩] h j
      = u3 (srcAt 262144 j (src3_bound j hlo)) :=
  concatenate_apply_piece (0 : Fin Rows.rank) [⟨Src0, u0⟩, ⟨Src12, u1⟩, ⟨Src12, u2⟩, ⟨Src3, u3⟩] h j 3 (show 3 < 4 by omega) Src3 u3 rfl rfl 262144
    (by show (131072 + (65536 + (65536 + 0)) : Nat) = 262144; norm_num)
    (srcAt 262144 j (src3_bound j hlo))
    (fun b hb => match b with
      | ⟨0, _⟩ => absurd rfl hb
      | ⟨1, _⟩ => rfl)
    (by show 262144 + ((j 0).val - 262144) = (j 0).val; omega)

/-! ## The same, for any source index with the right coordinates -/

/-- Joined row `r` is row `z` of source 0 when `z` has `r`'s coordinates. -/
theorem joined_at0 (u0 : Src0.Idx → α) (u1 : Src12.Idx → α) (u2 : Src12.Idx → α) (u3 : Src3.Idx → α)
    (h : Shape.Concatenates [Src0, Src12, Src12, Src3] Rows 0) (r : Rows.Idx) (z : Src0.Idx)
    (h0 : (z 0).val = (r 0).val) (h1 : (z 1).val = (r 1).val) :
    concatenate Rows 0 [⟨Src0, u0⟩, ⟨Src12, u1⟩, ⟨Src12, u2⟩, ⟨Src3, u3⟩] h r = u0 z := by
  have hz : (z 0).val < 131072 := (z 0).isLt
  rw [joined_src0 u0 u1 u2 u3 h r (by omega)]
  refine congrArg u0 (funext fun a => Fin.ext ?_)
  match a with
  | ⟨0, _⟩ => show (r 0).val - 0 = (z 0).val; omega
  | ⟨1, _⟩ => exact h1.symm

/-- Joined row `r` is row `z` of source 1 when `z`'s row is `r`'s less 131072. -/
theorem joined_at1 (u0 : Src0.Idx → α) (u1 : Src12.Idx → α) (u2 : Src12.Idx → α) (u3 : Src3.Idx → α)
    (h : Shape.Concatenates [Src0, Src12, Src12, Src3] Rows 0) (r : Rows.Idx) (z : Src12.Idx)
    (h0 : (z 0).val + 131072 = (r 0).val) (h1 : (z 1).val = (r 1).val) :
    concatenate Rows 0 [⟨Src0, u0⟩, ⟨Src12, u1⟩, ⟨Src12, u2⟩, ⟨Src3, u3⟩] h r = u1 z := by
  have hz : (z 0).val < 65536 := (z 0).isLt
  rw [joined_src1 u0 u1 u2 u3 h r (by omega) (by omega)]
  refine congrArg u1 (funext fun a => Fin.ext ?_)
  match a with
  | ⟨0, _⟩ => show (r 0).val - 131072 = (z 0).val; omega
  | ⟨1, _⟩ => exact h1.symm

/-- Joined row `r` is row `z` of source 2 when `z`'s row is `r`'s less 196608. -/
theorem joined_at2 (u0 : Src0.Idx → α) (u1 : Src12.Idx → α) (u2 : Src12.Idx → α) (u3 : Src3.Idx → α)
    (h : Shape.Concatenates [Src0, Src12, Src12, Src3] Rows 0) (r : Rows.Idx) (z : Src12.Idx)
    (h0 : (z 0).val + 196608 = (r 0).val) (h1 : (z 1).val = (r 1).val) :
    concatenate Rows 0 [⟨Src0, u0⟩, ⟨Src12, u1⟩, ⟨Src12, u2⟩, ⟨Src3, u3⟩] h r = u2 z := by
  have hz : (z 0).val < 65536 := (z 0).isLt
  rw [joined_src2 u0 u1 u2 u3 h r (by omega) (by omega)]
  refine congrArg u2 (funext fun a => Fin.ext ?_)
  match a with
  | ⟨0, _⟩ => show (r 0).val - 196608 = (z 0).val; omega
  | ⟨1, _⟩ => exact h1.symm

/-- Joined row `r` is row `z` of source 3 when `z`'s row is `r`'s less 262144. -/
theorem joined_at3 (u0 : Src0.Idx → α) (u1 : Src12.Idx → α) (u2 : Src12.Idx → α) (u3 : Src3.Idx → α)
    (h : Shape.Concatenates [Src0, Src12, Src12, Src3] Rows 0) (r : Rows.Idx) (z : Src3.Idx)
    (h0 : (z 0).val + 262144 = (r 0).val) (h1 : (z 1).val = (r 1).val) :
    concatenate Rows 0 [⟨Src0, u0⟩, ⟨Src12, u1⟩, ⟨Src12, u2⟩, ⟨Src3, u3⟩] h r = u3 z := by
  rw [joined_src3 u0 u1 u2 u3 h r (by omega)]
  refine congrArg u3 (funext fun a => Fin.ext ?_)
  match a with
  | ⟨0, _⟩ => show (r 0).val - 262144 = (z 0).val; omega
  | ⟨1, _⟩ => exact h1.symm

end Cert.JoinedRows

end
-- ==== Proof.AffineRows.lean ====
/-
  The affine map on rows.  `flat` is an array of 294912 rows of 128 features, `wT` a 128 × 128 matrix indexed
  (input feature, output feature), `b` one row of 128 biases.  The result at row r and output feature o is

      Σ_k flat[r, k] · wT[k, o]  +  b[0, o]      over the extended reals.

  The three index forms name the entries a result entry depends on: entry k of its own row, entry k of its own
  column of the matrix, and its own bias.
-/
import Idealize.ShloMosaic.PureOps.Ideal
import Idealize.ShloMosaic.Lib.ValueIdx

noncomputable section

namespace Cert.AffineRows

open Idealize.ShloMosaic

/-- All the rows, one after the other. -/
abbrev Rows : Shape := ⟨2, ![294912, 128]⟩
/-- The matrix, input feature first. -/
abbrev Mat : Shape := ⟨2, ![128, 128]⟩
/-- The bias, as one row. -/
abbrev BiasRow : Shape := ⟨2, ![1, 128]⟩

/-- Entry `k` of the row of `i`. -/
abbrev rowAt (i : Rows.Idx) (k : Fin 128) : Rows.Idx := fun a => match a with
  | ⟨0, _⟩ => ⟨(i 0).val, (i 0).isLt⟩
  | ⟨1, _⟩ => ⟨k.val, k.isLt⟩

/-- Entry `k` of the matrix column of `i`. -/
abbrev colAt (i : Rows.Idx) (k : Fin 128) : Mat.Idx := fun a => match a with
  | ⟨0, _⟩ => ⟨k.val, k.isLt⟩
  | ⟨1, _⟩ => ⟨(i 1).val, (i 1).isLt⟩

/-- The bias of the output feature of `i`. -/
abbrev biasAt (i : Rows.Idx) : BiasRow.Idx := fun a => match a with
  | ⟨0, _⟩ => ⟨0, Nat.one_pos⟩
  | ⟨1, _⟩ => ⟨(i 1).val, (i 1).isLt⟩

/-- Every row through the same affine map: the row times the matrix, plus the bias. -/
def affine (flat : Rows.Idx → EReal) (wT : Mat.Idx → EReal) (b : BiasRow.Idx → EReal) : Rows.Idx → EReal :=
  fun i => (∑ k : Fin 128, flat (rowAt i k) * wT (colAt i k)) + b (biasAt i)

theorem affine_apply (flat : Rows.Idx → EReal) (wT : Mat.Idx → EReal) (b : BiasRow.Idx → EReal) (i : Rows.Idx) :
    affine flat wT b i = (∑ k : Fin 128, flat (rowAt i k) * wT (colAt i k)) + b (biasAt i) := rfl

end Cert.AffineRows

end
-- ==== Proof.KernelRows.lean ====
/-
  The kernel's output array, after all 72 grid points.  Point t writes back block t of the output — rows 4096·t to
  4096·t + 4095 — and what it writes is the affine map of the joined rows, restricted to that block:
    · the block the body keeps at position t is the block of the source that owns these rows (source 0's block t for t < 32,
      source 1's block t − 32 for 32 ≤ t < 48, source 2's block t − 48 for 48 ≤ t < 64, source 3's block t − 64 after), and
      that source's row is the joined row;
    · the matrix and the bias windows are the whole arrays at every point.
  The 72 blocks tile the 294912 rows (row r lies in block r / 4096), so the array ends as the affine map of the joined rows.
-/
import proofs.«107236_j9663676416464_1_alg».proof.Proof.KernelIdealFramePatched
import proofs.«107236_j9663676416464_1_alg».proof.Proof.KernelBlock
import proofs.«107236_j9663676416464_1_alg».proof.Proof.JoinedRows
import proofs.«107236_j9663676416464_1_alg».proof.Proof.AffineRows
import Idealize.ShloMosaic.Lib.Pipeline.Value

noncomputable section

namespace Cert.KernelIdeal.RowsValue

open Cert.KernelIdeal Cert.KernelIdeal.Gen Cert.KernelIdeal.GenP Cert.KernelIdeal.Block
open Idealize.ShloMosaic Idealize.ShloMosaic.TcCoe Idealize.SL.Sem
open Idealize.ShloMosaic.Pipeline (Dat)
open Cert.AffineRows (affine rowAt colAt biasAt)

variable (m : (ℓ : Loc nD τ sig) → Buf (Elt Ideal) ℓ) (ρ : Dev nD → PrngReg)

/-- The four row counts add up. -/
theorem joins : Shape.Concatenates [S131072x128, S65536x128, S65536x128, S32768x128] S294912x128 0 := by decide

/-- The four flattened sources as the region finds them, laid one after the other. -/
def joined (c : Dev nD) : S294912x128.Idx → EReal :=
  concatenate S294912x128 0 [⟨S131072x128, (V m c main_v0 : S131072x128.Idx → EReal)⟩, ⟨S65536x128, (V m c main_v1 : S65536x128.Idx → EReal)⟩,
    ⟨S65536x128, (V m c main_v2 : S65536x128.Idx → EReal)⟩, ⟨S32768x128, (V m c main_v3 : S32768x128.Idx → EReal)⟩] joins

/-- What the output array is to hold: the affine map of the joined rows, with the matrix and the bias row as the region
    finds them. -/
def rows (c : Dev nD) : S294912x128.Idx → EReal :=
  affine (joined m c) (V m c main_v5 : S128x128.Idx → EReal) (V m c main_v6 : S1x128.Idx → EReal)

theorem hz : (![0, 0] : Fin 2 → Nat) = fun _ => 0 := funext fun a => by fin_cases a <;> rfl

/-- The printed index maps over the grid: the output's block index is the point; the matrix and the bias stay at block zero;
    every source window stays at feature block zero, and on the range of points that belongs to it moves with the point. -/
theorem idx_facts : ∀ t : Fin cfg0.N,
    ((grid0.coords t) 0).val = t.val
    ∧ win0_6.index t (0 : Fin 2) = t.val ∧ win0_6.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_0.index t (1 : Fin 2) = 0 ∧ win0_1.index t (1 : Fin 2) = 0 ∧ win0_2.index t (1 : Fin 2) = 0 ∧ win0_3.index t (1 : Fin 2) = 0
    ∧ (t.val < 32 → win0_0.index t (0 : Fin 2) = t.val)
    ∧ (32 ≤ t.val → t.val < 48 → win0_1.index t (0 : Fin 2) + 32 = t.val)
    ∧ (48 ≤ t.val → t.val < 64 → win0_2.index t (0 : Fin 2) + 48 = t.val)
    ∧ (64 ≤ t.val → win0_3.index t (0 : Fin 2) + 64 = t.val) :=
  (by decide +kernel : ∀ t : Fin grid0.N, _)

/-- Every block row of the output is some point's. -/
theorem idx_onto : ∀ q : Fin 72, ∃ t : Fin cfg0.N, win0_6.index t (0 : Fin 2) = q.val ∧ win0_6.index t (1 : Fin 2) = 0 :=
  (by decide +kernel : ∀ q : Fin 72, ∃ t : Fin grid0.N, win0_6.index t (0 : Fin 2) = q.val ∧ win0_6.index t (1 : Fin 2) = 0)

/-- At point `t` the entry of the kept candidate block is the joined rows' entry. -/
theorem kept_eq (c : Dev nD) (t : Fin cfg0.N) (y : S4096x128.Idx) (k : Fin 128) :
    pick ((grid0.coords t) 0).val (iblk m c 0 t (rowIn y k)) (iblk m c 1 t (rowIn y k)) (iblk m c 2 t (rowIn y k)) (iblk m c 3 t (rowIn y k))
      = joined m c (rowAt (((cfg0.win 6).blk t).view.emb y) k) := by
  obtain ⟨e0, e60, e61, -, -, -, -, e01, e11, e21, e31, f0, f1, f2, f3⟩ := idx_facts t
  have hy0 : (y 0).val < 4096 := (y 0).isLt
  rw [e0]
  unfold pick joined
  by_cases c0 : t.val < 32
  · rw [if_pos c0]
    show (V m c main_v0 : S131072x128.Idx → EReal) (((cfg0.win 0).blk t).view.emb (rowIn y k)) = _
    exact (Cert.JoinedRows.joined_at0 _ _ _ _ joins _ _
      (by show win0_0.index t (0 : Fin 2) * 4096 + 1 * (y 0).val = win0_6.index t (0 : Fin 2) * 4096 + 1 * (y 0).val; rw [f0 c0, e60])
      (by show win0_0.index t (1 : Fin 2) * 128 + 1 * k.val = k.val; rw [e01]; omega)).symm
  · rw [if_neg c0]
    by_cases c1 : t.val < 48
    · rw [if_pos c1]
      show (V m c main_v1 : S65536x128.Idx → EReal) (((cfg0.win 1).blk t).view.emb (rowIn y k)) = _
      exact (Cert.JoinedRows.joined_at1 _ _ _ _ joins _ _
        (by show win0_1.index t (0 : Fin 2) * 4096 + 1 * (y 0).val + 131072 = win0_6.index t (0 : Fin 2) * 4096 + 1 * (y 0).val
            have := f1 (by omega) c1; rw [e60]; omega)
        (by show win0_1.index t (1 : Fin 2) * 128 + 1 * k.val = k.val; rw [e11]; omega)).symm
    · rw [if_neg c1]
      by_cases c2 : t.val < 64
      · rw [if_pos c2]
        show (V m c main_v2 : S65536x128.Idx → EReal) (((cfg0.win 2).blk t).view.emb (rowIn y k)) = _
        exact (Cert.JoinedRows.joined_at2 _ _ _ _ joins _ _
          (by show win0_2.index t (0 : Fin 2) * 4096 + 1 * (y 0).val + 196608 = win0_6.index t (0 : Fin 2) * 4096 + 1 * (y 0).val
              have := f2 (by omega) c2; rw [e60]; omega)
          (by show win0_2.index t (1 : Fin 2) * 128 + 1 * k.val = k.val; rw [e21]; omega)).symm
      · rw [if_neg c2]
        show (V m c main_v3 : S32768x128.Idx → EReal) (((cfg0.win 3).blk t).view.emb (rowIn y k)) = _
        exact (Cert.JoinedRows.joined_at3 _ _ _ _ joins _ _
          (by show win0_3.index t (0 : Fin 2) * 4096 + 1 * (y 0).val + 262144 = win0_6.index t (0 : Fin 2) * 4096 + 1 * (y 0).val
              have := f3 (by omega); rw [e60]; omega)
          (by show win0_3.index t (1 : Fin 2) * 128 + 1 * k.val = k.val; rw [e31]; omega)).symm

/-- At every point the matrix window is the whole matrix. -/
theorem mat_eq (c : Dev nD) (t : Fin cfg0.N) (y : S4096x128.Idx) (k : Fin 128) :
    iblk m c 4 t (colIn y k) = (V m c main_v5 : S128x128.Idx → EReal) (colAt (((cfg0.win 6).blk t).view.emb y) k) := by
  obtain ⟨-, -, e61, e40, e41, -, -, -, -, -, -, -, -, -, -⟩ := idx_facts t
  show (V m c main_v5 : S128x128.Idx → EReal) (((cfg0.win 4).blk t).view.emb (colIn y k)) = _
  refine congrArg (V m c main_v5 : S128x128.Idx → EReal) (funext fun a => Fin.ext ?_)
  match a with
  | ⟨0, _⟩ => show win0_4.index t (0 : Fin 2) * 128 + 1 * k.val = k.val; rw [e40]; omega
  | ⟨1, _⟩ => show win0_4.index t (1 : Fin 2) * 128 + 1 * (y 1).val = win0_6.index t (1 : Fin 2) * 128 + 1 * (y 1).val; rw [e41, e61]

/-- And the bias window the whole bias row. -/
theorem bias_eq (c : Dev nD) (t : Fin cfg0.N) (y : S4096x128.Idx) :
    iblk m c 5 t (biasIn y) = (V m c main_v6 : S1x128.Idx → EReal) (biasAt (((cfg0.win 6).blk t).view.emb y)) := by
  obtain ⟨-, -, e61, -, -, e50, e51, -, -, -, -, -, -, -, -⟩ := idx_facts t
  show (V m c main_v6 : S1x128.Idx → EReal) (((cfg0.win 5).blk t).view.emb (biasIn y)) = _
  refine congrArg (V m c main_v6 : S1x128.Idx → EReal) (funext fun a => Fin.ext ?_)
  match a with
  | ⟨0, _⟩ => show win0_5.index t (0 : Fin 2) * 1 + 1 * 0 = 0; rw [e50]
  | ⟨1, _⟩ => show win0_5.index t (1 : Fin 2) * 128 + 1 * (y 1).val = win0_6.index t (1 : Fin 2) * 128 + 1 * (y 1).val; rw [e51, e61]

/-- What point `t` writes back is block `t` of the affine map of the joined rows. -/
theorem flushed_eq (c : Dev nD) (t : Fin cfg0.N) :
    (dats m 0 c).flushed 6 t = ((cfg0.win 6).blk t).view.read (Elt Ideal) (rows m c) := by
  show (cfg0.win 6).cut (grid0.coords t) ((dats m 0 c).after 6 t) = _
  rw [after0_6]
  unfold out0_6
  rw [View.canon_unit_zero hz]
  simp only [View.ld_unit_zero (S := S4096x128) hz, View.ld_unit_zero (S := S128x128) hz, View.ld_unit_zero (S := S1x128) hz]
  funext y
  show k0_pay1 (F := Ideal) (grid0.coords t) (iblk m c 0 t) (iblk m c 1 t) (iblk m c 2 t) (iblk m c 3 t) (iblk m c 4 t) (iblk m c 5 t) y
    = rows m c (((cfg0.win 6).blk t).view.emb y)
  refine (pay_apply (grid0.coords t) (iblk m c 0 t) (iblk m c 1 t) (iblk m c 2 t) (iblk m c 3 t) (iblk m c 4 t) (iblk m c 5 t) y).trans ?_
  unfold rows
  rw [Cert.AffineRows.affine_apply, bias_eq m c t y]
  refine congrArg (· + _) (Finset.sum_congr rfl fun k _ => ?_)
  rw [kept_eq m c t y k, mat_eq m c t y k]

/-- An index of the output array is in point `t`'s block iff each coordinate is in the block's range on its axis. -/
theorem mem_blk (t : Fin cfg0.N) (i : S294912x128.Idx) :
    i ∈ ((cfg0.win 6).blk t).view.set ↔ ∀ a : Fin 2, win0_6.index t a * S4096x128.size a ≤ (i a).val ∧ (i a).val < win0_6.index t a * S4096x128.size a + S4096x128.size a := by
  show i ∈ ((View.whole main_v7).slice (win0_6.rect t)).set ↔ _
  rw [View.set_slice_whole, Rect.mem_set_unit]
  exact Iff.rfl

/-- The 72 blocks tile the rows: row r lies in the block of point r / 4096. -/
theorem cover (i : S294912x128.Idx) : ∃ t : Fin cfg0.N, (cfg0.win 6).flush t = true ∧ i ∈ ((cfg0.win 6).blk t).view.set := by
  have hi0 : (i 0).val < 294912 := (i 0).isLt
  have hi1 : (i 1).val < 128 := (i 1).isLt
  obtain ⟨t, q0, q1⟩ := idx_onto ⟨(i 0).val / 4096, by omega⟩
  refine ⟨t, flush0_6 t, ?_⟩
  rw [mem_blk]
  intro a
  match a with
  | ⟨0, _⟩ => show win0_6.index t (0 : Fin 2) * 4096 ≤ (i 0).val ∧ (i 0).val < win0_6.index t (0 : Fin 2) * 4096 + 4096; rw [q0]; show (i 0).val / 4096 * 4096 ≤ (i 0).val ∧ (i 0).val < (i 0).val / 4096 * 4096 + 4096; omega
  | ⟨1, _⟩ => show win0_6.index t (1 : Fin 2) * 128 ≤ (i 1).val ∧ (i 1).val < win0_6.index t (1 : Fin 2) * 128 + 128; rw [q1]; omega

/-- The output array after the run is the affine map of the joined rows. -/
theorem final (c : Dev nD) : (dats m 0 c).arrAt 6 cfg0.N = rows m c :=
  (dats m 0 c).arrAt_eq_of_cover 6 (rows m c) (fun t _ => flushed_eq m c t) cover

end Cert.KernelIdeal.RowsValue

end
-- ==== Proof.KernelResult.lean ====
/-
  The kernel's result.  After the region the host regroups the output array's 294912 rows as [72, 64, 64, 128]; before the
  region it has flattened the four sources, transposed the weight (and narrowed its float format, the identity on the
  extended reals) and made the bias one row.  So the result is the regrouped affine map of the joined flattened
  sources, with the transposed weight as the matrix and the bias as a row — all in terms of the arguments.
-/
import proofs.«107236_j9663676416464_1_alg».proof.Proof.KernelRows
import Idealize.ShloMosaic.Lib.StableHlo.Run

noncomputable section

namespace Cert.KernelIdeal.RowsValue

open Cert.KernelIdeal Cert.KernelIdeal.Gen Cert.KernelIdeal.GenP Cert.KernelIdeal.Block
open Idealize.ShloMosaic Idealize.ShloMosaic.TcCoe Idealize.SL.Sem Idealize.ShloMosaic.StableHlo
open Idealize.ShloMosaic.Pipeline (Dat)
open Cert.AffineRows (affine)

variable (m : (ℓ : Loc nD τ sig) → Buf (Elt Ideal) ℓ) (ρ : Dev nD → PrngReg)

/-! ## The arrays the region finds, in terms of the arguments -/

theorem V_v0 (c : Dev nD) : (V m c main_v0 : S131072x128.Idx → EReal)
    = shapeCast S131072x128 (m ((c : Thread nD τ).loc main_arg0)) shapeCasts_S32x64x64x128_S131072x128 := by
  show StableHlo.after hostOps0 (fun b => m (c, b)) (Proc.devRef .tc main_v0) = _
  after_results
  rfl

theorem V_v1 (c : Dev nD) : (V m c main_v1 : S65536x128.Idx → EReal)
    = shapeCast S65536x128 (m ((c : Thread nD τ).loc main_arg1)) shapeCasts_S32x32x64x128_S65536x128 := by
  show StableHlo.after hostOps0 (fun b => m (c, b)) (Proc.devRef .tc main_v1) = _
  after_results
  rfl

theorem V_v2 (c : Dev nD) : (V m c main_v2 : S65536x128.Idx → EReal)
    = shapeCast S65536x128 (m ((c : Thread nD τ).loc main_arg2)) shapeCasts_S32x64x32x128_S65536x128 := by
  show StableHlo.after hostOps0 (fun b => m (c, b)) (Proc.devRef .tc main_v2) = _
  after_results
  rfl

theorem V_v3 (c : Dev nD) : (V m c main_v3 : S32768x128.Idx → EReal)
    = shapeCast S32768x128 (m ((c : Thread nD τ).loc main_arg3)) shapeCasts_S32x32x32x128_S32768x128 := by
  show StableHlo.after hostOps0 (fun b => m (c, b)) (Proc.devRef .tc main_v3) = _
  after_results
  rfl

/-- The matrix: the weight transposed (the narrowing of its format changes nothing). -/
theorem V_v5 (c : Dev nD) : (V m c main_v5 : S128x128.Idx → EReal)
    = transpose S128x128 [1, 0] (m ((c : Thread nD τ).loc main_arg4)) transposes_S128x128_S128x128_1_0 := by
  show StableHlo.after hostOps0 (fun b => m (c, b)) (Proc.devRef .tc main_v5) = _
  after_results
  rfl

/-- The bias as one row. -/
theorem V_v6 (c : Dev nD) : (V m c main_v6 : S1x128.Idx → EReal)
    = shapeCast S1x128 (m ((c : Thread nD τ).loc main_arg5)) shapeCasts_S128_S1x128 := by
  show StableHlo.after hostOps0 (fun b => m (c, b)) (Proc.devRef .tc main_v6) = _
  after_results
  rfl

/-! ## The result -/

/-- The host line after the region regroups the output array. -/
theorem tail_eq (c : Dev nD) :
    Pipeline.afterTail₀ cfgs (dats m) 0 (V0 m) [hostOps1] c main_v8
      = shapeCast S72x64x64x128 (rows m c) shapeCasts_S294912x128_S72x64x64x128 := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v7) = rows m c :=
    (Pipeline.withArrays_arr spec0 launch0.win.arr_inj c _ _ 6).trans (final m c)
  rw [e]
  rfl

/-- The kernel's run, read: the result is the regrouped affine map of the joined rows, and the arguments are unchanged. -/
theorem run : θ_run defs (onTc (τ := τ) (main (F := Ideal))) ⟨m, fun _ => 0, ρ⟩ fun r => ∀ c : Dev nD,
      r.2.mem ((c.tc : Thread nD τ).loc main_v8) = shapeCast S72x64x64x128 (rows m c) shapeCasts_S294912x128_S72x64x64x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

/-- The array the result regroups, in terms of the arguments: the four flattened sources joined, the weight transposed, the
    bias as one row. -/
theorem rows_eq_args (c : Dev nD) :
    rows m c = affine
      (concatenate S294912x128 0 [⟨S131072x128, shapeCast S131072x128 (m ((c : Thread nD τ).loc main_arg0)) shapeCasts_S32x64x64x128_S131072x128⟩,
        ⟨S65536x128, shapeCast S65536x128 (m ((c : Thread nD τ).loc main_arg1)) shapeCasts_S32x32x64x128_S65536x128⟩,
        ⟨S65536x128, shapeCast S65536x128 (m ((c : Thread nD τ).loc main_arg2)) shapeCasts_S32x64x32x128_S65536x128⟩,
        ⟨S32768x128, shapeCast S32768x128 (m ((c : Thread nD τ).loc main_arg3)) shapeCasts_S32x32x32x128_S32768x128⟩] joins)
      (transpose S128x128 [1, 0] (m ((c : Thread nD τ).loc main_arg4)) transposes_S128x128_S128x128_1_0)
      (shapeCast S1x128 (m ((c : Thread nD τ).loc main_arg5)) shapeCasts_S128_S1x128) := by
  unfold rows joined
  rw [V_v0, V_v1, V_v2, V_v3, V_v5, V_v6]

end Cert.KernelIdeal.RowsValue

end
-- ==== Proof.ReferenceRows.lean ====
/-
  The reference, read before its last regrouping.  Its four flattened sources are joined into 294912 rows, the rows are
  multiplied with the transposed weight by one matrix product, and the bias — first made a row, then repeated down all
  the rows — is added.  Entry by entry that is the affine map of the joined rows: the product's entry is the sum over
  the 128 features of row entry times matrix entry, and the repeated bias at (r, o) is the bias row at (0, o).
-/
import proofs.«107236_j9663676416464_1_alg».proof.Proof.Gen.ReferenceIdeal.Read
import proofs.«107236_j9663676416464_1_alg».proof.Proof.AffineRows

noncomputable section

namespace Cert.ReferenceIdeal.Rows

open Cert.ReferenceIdeal Cert.ReferenceIdeal.Gen Cert.ReferenceIdeal.Read Idealize.ShloMosaic

/-- Before the regrouping the reference holds the affine map of the joined rows, with the transposed weight as the
    matrix and the bias as a row. -/
theorem sum_eq_affine (x0 : (⟨S32x64x64x128, .f32⟩ : BufTy).Contents (Elt Ideal)) (x1 : (⟨S32x32x64x128, .f32⟩ : BufTy).Contents (Elt Ideal))
    (x2 : (⟨S32x64x32x128, .f32⟩ : BufTy).Contents (Elt Ideal)) (x3 : (⟨S32x32x32x128, .f32⟩ : BufTy).Contents (Elt Ideal))
    (x4 : (⟨S128x128, .f32⟩ : BufTy).Contents (Elt Ideal)) (x5 : (⟨S128, .f32⟩ : BufTy).Contents (Elt Ideal)) :
    val_main_v9 (F := Ideal) x0 x1 x2 x3 x4 x5
      = Cert.AffineRows.affine (val_main_v4 (F := Ideal) x0 x1 x2 x3) (val_main_v5 (F := Ideal) x4) (val_main_v7 (F := Ideal) x5) := by
  funext i
  rw [val_main_v9_apply, val_main_v6_apply, val_main_v8_apply]
  rfl

/-- So the reference's result is that array regrouped. -/
theorem result_eq (x0 : (⟨S32x64x64x128, .f32⟩ : BufTy).Contents (Elt Ideal)) (x1 : (⟨S32x32x64x128, .f32⟩ : BufTy).Contents (Elt Ideal))
    (x2 : (⟨S32x64x32x128, .f32⟩ : BufTy).Contents (Elt Ideal)) (x3 : (⟨S32x32x32x128, .f32⟩ : BufTy).Contents (Elt Ideal))
    (x4 : (⟨S128x128, .f32⟩ : BufTy).Contents (Elt Ideal)) (x5 : (⟨S128, .f32⟩ : BufTy).Contents (Elt Ideal)) :
    val_main_v10 (F := Ideal) x0 x1 x2 x3 x4 x5
      = shapeCast S72x64x64x128 (Cert.AffineRows.affine (val_main_v4 (F := Ideal) x0 x1 x2 x3) (val_main_v5 (F := Ideal) x4) (val_main_v7 (F := Ideal) x5))
          shapeCasts_S294912x128_S72x64x64x128 := by
  unfold val_main_v10
  rw [sum_eq_affine]

end Cert.ReferenceIdeal.Rows

end
-- ==== Proof.BiasRow.lean ====
/-
  The bias as one row, two ways.  Regrouping 128 numbers as a 1 × 128 array and repeating them along a new leading axis of
  extent one give the same array: entry (0, o) is the o-th number either way.
-/
import Idealize.ShloMosaic.Lib.Pipeline.Value
import Idealize.ShloMosaic.Lib.ValueIdx
import Idealize.ShloMosaic.Lib.ValueLayout

noncomputable section

namespace Cert.BiasRow

open Idealize.ShloMosaic Idealize.ShloMosaic.ValueIdx

variable {α : Type}

/-- Regrouped as a row, or repeated along a new unit axis: the same row. -/
theorem regroup_eq_repeat (x : (⟨1, ![128]⟩ : Shape).Idx → α) (h : (⟨1, ![128]⟩ : Shape).ShapeCasts ⟨2, ![1, 128]⟩)
    (h' : (⟨1, ![128]⟩ : Shape).BroadcastsInDim ⟨2, ![1, 128]⟩ (![1] : Fin 1 → Fin 2)) :
    shapeCast ⟨2, ![1, 128]⟩ x h = broadcastInDim ⟨2, ![1, 128]⟩ ![1] h' x := by
  funext i
  obtain ⟨u, q, rfl⟩ : ∃ (u : Fin 1) (q : Fin 128), i = ix2 u q := ⟨i 0, i 1, eq_ix2 i⟩
  rw [shapeCast_a_1a_apply]
  exact (broadcastInDim_apply _ h' x (ix2 u q) (ix1 q) (fun a => match a with
    | ⟨0, _⟩ => by show q.val = if (128 : Nat) = 1 then 0 else q.val; rw [if_neg (by decide)])).symm

end Cert.BiasRow

end
-- ==== Proof.lean ====
/-
  Grouped linear layer over four ragged sources.  The four inputs x0 … x3, flattened to rows of 128 features, are laid one
  after the other (131072 + 65536 + 65536 + 32768 = 294912 rows); every row is sent through the same affine map
  y = x · Wᵀ + b, and the rows are regrouped as [72, 64, 64, 128].

  The kernel walks the 294912 rows in 72 blocks of 4096.  Block t lies wholly inside one source — source 0 for t < 32,
  source 1 for 32 ≤ t < 48, source 2 for 48 ≤ t < 64, source 3 from 64 on — and the body selects that source's block by
  comparing the grid position with these bounds, multiplies it with the transposed weight and adds the bias.  The
  reference concatenates the four flattened sources and applies one matrix product and one broadcast sum.

  On the extended reals both compute, at row r and output feature o,  Σ_k flat[r, k] · W[o, k] + b[o]  where flat is the
  concatenation: the changes of float format are the identity, the selection picks exactly the block of the concatenation
  that the grid point covers, and the two sums range over the same 128 products.  No finiteness of the inputs is used.
-/
import proofs.«107236_j9663676416464_1_alg».proof.Defs
import proofs.«107236_j9663676416464_1_alg».proof.Proof.Gen.Kernel
import proofs.«107236_j9663676416464_1_alg».proof.Proof.Gen.KernelIdeal
import proofs.«107236_j9663676416464_1_alg».proof.Proof.Gen.ReferenceIdeal
import proofs.«107236_j9663676416464_1_alg».proof.Proof.Gen.Pre_finite_inputs
import proofs.«107236_j9663676416464_1_alg».proof.Proof.Gen.ReferenceIdeal.Run
import proofs.«107236_j9663676416464_1_alg».proof.Proof.Gen.ReferenceIdeal.Read
import proofs.«107236_j9663676416464_1_alg».proof.Proof.KernelFramePatched
import proofs.«107236_j9663676416464_1_alg».proof.Proof.KernelIdealFramePatched
import proofs.«107236_j9663676416464_1_alg».proof.Proof.KernelResult
import proofs.«107236_j9663676416464_1_alg».proof.Proof.ReferenceRows
import proofs.«107236_j9663676416464_1_alg».proof.Proof.BiasRow
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.GenP.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.GenP.frame m ρ

/-- The reference is a straight line of host operations: its run, with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On the same arguments the kernel's output array and the reference's sum, both before the regrouping, are one array: the
    joined flattened sources and the transposed weight are spelled alike in the two programs, and the bias row is the
    same row whether regrouped or repeated along a new unit axis. -/
theorem rows_agree (m : (ℓ : Loc Cert.KernelIdeal.nD Cert.KernelIdeal.τ Cert.KernelIdeal.sig) → Buf (Elt Ideal) ℓ) (c : Dev Cert.KernelIdeal.nD) :
    Cert.KernelIdeal.RowsValue.rows m c
      = Cert.AffineRows.affine
          (Cert.ReferenceIdeal.Read.val_main_v4 (F := Ideal) (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3)))
          (Cert.ReferenceIdeal.Read.val_main_v5 (F := Ideal) (m ((c.tc : Thread Cert.KernelIdeal.nD Cert.KernelIdeal.τ).loc Cert.KernelIdeal.main_arg4)))
          (Cert.ReferenceIdeal.Read.val_main_v7 (F := Ideal) (m ((c.tc : Thread Cert.KernelIdeal.nD Cert.KernelIdeal.τ).loc Cert.KernelIdeal.main_arg5))) := by
  rw [Cert.KernelIdeal.RowsValue.rows_eq_args]
  exact congrArg (Cert.AffineRows.affine _ _)
    (Cert.BiasRow.regroup_eq_repeat _ Cert.KernelIdeal.Gen.shapeCasts_S128_S1x128 Cert.ReferenceIdeal.Gen.bcast_S128_S1x128_1)

/-- From memories that agree on the arguments both idealized programs end with the regrouped affine map of the joined
    rows: the kernel by its run read block by block, the reference by its run read operation by operation. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => shapeCast Cert.KernelIdeal.S72x64x64x128 (Cert.KernelIdeal.RowsValue.rows m c)
      Cert.KernelIdeal.Gen.shapeCasts_S294912x128_S72x64x64x128, Cert.KernelIdeal.RowsValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.Rows.result_eq, (hagree c).1, (hagree c).2.1, (hagree c).2.2.1,
    (hagree c).2.2.2.1, (hagree c).2.2.2.2.1, (hagree c).2.2.2.2.2]
  exact (congrArg (fun a => shapeCast Cert.KernelIdeal.S72x64x64x128 a Cert.KernelIdeal.Gen.shapeCasts_S294912x128_S72x64x64x128)
    (rows_agree m c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
